-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S5x5 : Shape := ⟨2, ![5, 5]⟩
abbrev S5 : Shape := ⟨1, ![5]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_

variable [Facts]

def fn {F : FTy → Type} [FloatOps F] (main_arg0 : FVec F S4194304x5 .f32) (main_arg1 : FVec F S5x5 .f32) (main_arg2 : FVec F S5 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S5x5 .f32 := Host.absf main_arg1
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  main_v13
-- ==== Kernel.lean ====
abbrev S4194304x5 : Shape := ⟨2, ![4194304, 5]⟩
abbrev S5x5 : Shape := ⟨2, ![5, 5]⟩
abbrev S5 : Shape := ⟨1, ![5]⟩
abbrev S32768x640 : Shape := ⟨2, ![32768, 640]⟩
abbrev S1x5x1x5 : Shape := ⟨4, ![1, 5, 1, 5]⟩
abbrev S128x5x128x5 : Shape := ⟨4, ![128, 5, 128, 5]⟩
abbrev S640x640 : Shape := ⟨2, ![640, 640]⟩
abbrev S_ : Shape := ⟨0, ![]⟩
abbrev S1x5 : Shape := ⟨2, ![1, 5]⟩
abbrev S128x5 : Shape := ⟨2, ![128, 5]⟩
abbrev S640 : Shape := ⟨1, ![640]⟩
abbrev S1x640 : Shape := ⟨2, ![1, 640]⟩
abbrev S1024x640 : Shape := ⟨2, ![1024, 640]⟩

abbrev nBuf : Space → Nat
  | .hbm => 56
  | .vmem => 6
  | .smem => 0
  | _ => 0

abbrev bufTy : (tb : Table) → Fin (tcTables nBuf tb) → BufTy
  | .hbm, ⟨0, _⟩ => ⟨S4194304x5, .f32⟩
  | .hbm, ⟨1, _⟩ => ⟨S5x5, .f32⟩
  | .hbm, ⟨2, _⟩ => ⟨S5, .f32⟩
  | .hbm, ⟨3, _⟩ => ⟨S32768x640, .f32⟩
  | .hbm, ⟨4, _⟩ => ⟨S5x5, .f32⟩
  | .hbm, ⟨5, _⟩ => ⟨S1x5x1x5, .f32⟩
  | .hbm, ⟨6, _⟩ => ⟨S128x5x128x5, .f32⟩
  | .hbm, ⟨7, _⟩ => ⟨S640x640, .f32⟩
  | .hbm, ⟨8, _⟩ => ⟨S640x640, .i32⟩
  | .hbm, ⟨9, _⟩ => ⟨S640x640, .i32⟩
  | .hbm, ⟨10, _⟩ => ⟨S_, .i32⟩
  | .hbm, ⟨11, _⟩ => ⟨S_, .i32⟩
  | .hbm, ⟨12, _⟩ => ⟨S640x640, .i32⟩
  | .hbm, ⟨13, _⟩ => ⟨S640x640, .i32⟩
  | .hbm, ⟨14, _⟩ => ⟨S640x640, .i32⟩
  | .hbm, ⟨15, _⟩ => ⟨S_, .i32⟩
  | .hbm, ⟨16, _⟩ => ⟨S640x640, .i32⟩
  | .hbm, ⟨17, _⟩ => ⟨S640x640, .i1⟩
  | .hbm, ⟨18, _⟩ => ⟨S640x640, .i32⟩
  | .hbm, ⟨19, _⟩ => ⟨S640x640, .i32⟩
  | .hbm, ⟨20, _⟩ => ⟨S_, .i32⟩
  | .hbm, ⟨21, _⟩ => ⟨S640x640, .i32⟩
  | .hbm, ⟨22, _⟩ => ⟨S640x640, .i1⟩
  | .hbm, ⟨23, _⟩ => ⟨S640x640, .i1⟩
  | .hbm, ⟨24, _⟩ => ⟨S_, .i32⟩
  | .hbm, ⟨25, _⟩ => ⟨S640x640, .i32⟩
  | .hbm, ⟨26, _⟩ => ⟨S640x640, .i32⟩
  | .hbm, ⟨27, _⟩ => ⟨S640x640, .i32⟩
  | .hbm, ⟨28, _⟩ => ⟨S_, .i32⟩
  | .hbm, ⟨29, _⟩ => ⟨S_, .i32⟩
  | .hbm, ⟨30, _⟩ => ⟨S640x640, .i32⟩
  | .hbm, ⟨31, _⟩ => ⟨S640x640, .i32⟩
  | .hbm, ⟨32, _⟩ => ⟨S640x640, .i32⟩
  | .hbm, ⟨33, _⟩ => ⟨S_, .i32⟩
  | .hbm, ⟨34, _⟩ => ⟨S640x640, .i32⟩
  | .hbm, ⟨35, _⟩ => ⟨S640x640, .i1⟩
  | .hbm, ⟨36, _⟩ => ⟨S640x640, .i32⟩
  | .hbm, ⟨37, _⟩ => ⟨S640x640, .i32⟩
  | .hbm, ⟨38, _⟩ => ⟨S_, .i32⟩
  | .hbm, ⟨39, _⟩ => ⟨S640x640, .i32⟩
  | .hbm, ⟨40, _⟩ => ⟨S640x640, .i1⟩
  | .hbm, ⟨41, _⟩ => ⟨S640x640, .i1⟩
  | .hbm, ⟨42, _⟩ => ⟨S_, .i32⟩
  | .hbm, ⟨43, _⟩ => ⟨S640x640, .i32⟩
  | .hbm, ⟨44, _⟩ => ⟨S640x640, .i32⟩
  | .hbm, ⟨45, _⟩ => ⟨S640x640, .i32⟩
  | .hbm, ⟨46, _⟩ => ⟨S640x640, .i1⟩
  | .hbm, ⟨47, _⟩ => ⟨S_, .f32⟩
  | .hbm, ⟨48, _⟩ => ⟨S640x640, .f32⟩
  | .hbm, ⟨49, _⟩ => ⟨S640x640, .f32⟩
  | .hbm, ⟨50, _⟩ => ⟨S1x5, .f32⟩
  | .hbm, ⟨51, _⟩ => ⟨S128x5, .f32⟩
  | .hbm, ⟨52, _⟩ => ⟨S640, .f32⟩
  | .hbm, ⟨53, _⟩ => ⟨S1x640, .f32⟩
  | .hbm, ⟨54, _⟩ => ⟨S32768x640, .f32⟩
  | .hbm, ⟨55, _⟩ => ⟨S4194304x5, .f32⟩
  | .local _ .vmem, ⟨0, _⟩ => ⟨S1024x640, .f32⟩
  | .local _ .vmem, ⟨1, _⟩ => ⟨S1024x640, .f32⟩
  | .local _ .vmem, ⟨2, _⟩ => ⟨S640x640, .f32⟩
  | .local _ .vmem, ⟨3, _⟩ => ⟨S1x640, .f32⟩
  | .local _ .vmem, ⟨4, _⟩ => ⟨S1024x640, .f32⟩
  | .local _ .vmem, ⟨5, _⟩ => ⟨S1024x640, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v8 : Ref sig .tc := ⟨.hbm, 45, rfl⟩
abbrev main_v9 : Ref sig .tc := ⟨.hbm, 46, rfl⟩
abbrev main_cst : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4194304x5_S32768x640 : S4194304x5.ShapeCasts S32768x640
  transposes_S5x5_S5x5_1_0 : S5x5.Transposes [1, 0] S5x5
  shapeCasts_S5x5_S1x5x1x5 : S5x5.ShapeCasts S1x5x1x5
  bcast_S1x5x1x5_S128x5x128x5_0_1_2_3 : S1x5x1x5.BroadcastsInDim S128x5x128x5 (![0, 1, 2, 3] : Fin 4 → Fin S128x5x128x5.rank)
  shapeCasts_S128x5x128x5_S640x640 : S128x5x128x5.ShapeCasts S640x640
  bcast_S_S640x640 : S_.BroadcastsInDim S640x640 (![] : Fin 0 → Fin S640x640.rank)
  shapeCasts_S5_S1x5 : S5.ShapeCasts S1x5
  bcast_S1x5_S128x5_0_1 : S1x5.BroadcastsInDim S128x5 (![0, 1] : Fin 2 → Fin S128x5.rank)
  shapeCasts_S128x5_S640 : S128x5.ShapeCasts S640
  shapeCasts_S640_S1x640 : S640.ShapeCasts S1x640
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S1024x640 : S1x640.Broadcasts S1024x640
  shapeCasts_S32768x640_S4194304x5 : S32768x640.ShapeCasts S4194304x5
  dot_S1024x640_S640x640_S1024x640_1_0_0_1_n_n_wf : DotDims.WF S1024x640 S640x640 S1024x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x640.size a ≤ S32768x640.size a
  hwx0_0 : ∀ i : grid0.Coords, EltTy.bits .f32 = 32 ∨ (Rect.block (s := S32768x640) S1024x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .f32 = 32 ∨ (Rect.block (s := S640x640) S640x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S32768x640.size a
  hwx0_3 : ∀ i : grid0.Coords, EltTy.bits .f32 = 32 ∨ (Rect.block (s := S32768x640) S1024x640.size (cc0_transform_3 i) (hinb0_3 i)).WholeWords (EltTy.packing .f32)

variable [Facts₀]

def dot_S1024x640_S640x640_S1024x640_1_0_0_1_n_n : DotDims S1024x640 S640x640 S1024x640 where
  lhsContracting := [1]
  rhsContracting := [0]
  lhsNonContracting := [0]
  rhsNonContracting := [1]
  lhsBatch := []
  rhsBatch := []
  wf := dot_S1024x640_S640x640_S1024x640_1_0_0_1_n_n_wf

abbrev win0_0 : Pipeline.Window sig grid0 :=
  Pipeline.Window.ofSpec (Memref.whole main_v0) S1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S5x5 : Shape := ⟨2, ![5, 5]⟩
abbrev S5 : Shape := ⟨1, ![5]⟩
abbrev S1x5 : Shape := ⟨2, ![1, 5]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S5x5, .f32⟩
  | .hbm, ⟨2, _⟩ => ⟨S5, .f32⟩
  | .hbm, ⟨3, _⟩ => ⟨S5x5, .f32⟩
  | .hbm, ⟨4, _⟩ => ⟨S4194304x5, .f32⟩
  | .hbm, ⟨5, _⟩ => ⟨S1x5, .f32⟩
  | .hbm, ⟨6, _⟩ => ⟨S4194304x5, .f32⟩
  | .hbm, ⟨7, _⟩ => ⟨S4194304x5, .f32⟩
  | .hbm, ⟨8, _⟩ => ⟨S4194304x5, .f32⟩
  | .hbm, ⟨9, _⟩ => ⟨S_, .f32⟩
  | .hbm, ⟨10, _⟩ => ⟨S4194304x5, .f32⟩
  | .hbm, ⟨11, _⟩ => ⟨S4194304x5, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S5x5_S5x5_1_0 : S5x5.Transposes [1, 0] S5x5
  bcast_S5_S1x5_1 : S5.BroadcastsInDim S1x5 (![1] : Fin 1 → Fin S1x5.rank)
  bcast_S1x5_S4194304x5_0_1 : S1x5.BroadcastsInDim S4194304x5 (![0, 1] : Fin 2 → Fin S4194304x5.rank)
  bcast_S_S4194304x5 : S_.BroadcastsInDim S4194304x5 (![] : Fin 0 → Fin S4194304x5.rank)
  dot_S4194304x5_S5x5_S4194304x5_1_0_0_1_n_n_wf : DotDims.WF S4194304x5 S5x5 S4194304x5 [1] [0] [0] [1] [] []

variable [Facts₀]

def dot_S4194304x5_S5x5_S4194304x5_1_0_0_1_n_n : DotDims S4194304x5 S5x5 S4194304x5 where
  lhsContracting := [1]
  rhsContracting := [0]
  lhsNonContracting := [0]
  rhsNonContracting := [1]
  lhsBatch := []
  rhsBatch := []
  wf := dot_S4194304x5_S5x5_S4194304x5_1_0_0_1_n_n_wf

class Facts : Prop extends Facts₀ where

variable [Facts]
-- ==== Proof.Spec.lean ====
/-
  The function both programs compute, entry by entry, over the extended reals.

  For an input `x` of 4194304 rows of five numbers, a 5 × 5 weight `w` and a bias `b`, entry `(r, j)` of the result is
      `max (−(∑ k, x[r, k] · w[j, k] + b[j]), −1000)`:
  the linear map `h = x · wᵀ + b` negated and clamped below at −1000.
-/
import Idealize.ShloMosaic.PureOps.Ideal
import Idealize.ShloMosaic.Lib.ValueIdx

noncomputable section

namespace Cert.Spec

open Idealize.ShloMosaic Idealize.ShloMosaic.ValueIdx

/-- The result at entry `i = (r, j)`. -/
def G (x : (⟨2, ![4194304, 5]⟩ : Shape).Idx → EReal) (w : (⟨2, ![5, 5]⟩ : Shape).Idx → EReal)
    (b : (⟨1, ![5]⟩ : Shape).Idx → EReal) : (⟨2, ![4194304, 5]⟩ : Shape).Idx → EReal :=
  fun i => max (-((∑ k : Fin 5, x (ix2 (i 0) k) * w (ix2 (i 1) k)) + b (ix1 (i 1)))) (Ideal.ofBits .f32 0xC47A0000#32)

end Cert.Spec

end
-- ==== Proof.RefValue.lean ====
/-
  The reference program computes `Spec.G`.

  The reference is `max (−(x · wᵀ + b), −1000)` in nine host operations: the transpose of the weight, the
  matrix product, the bias broadcast to every row, the sum, the negation, the clamp. Read at entry `(r, j)`:
  the product is `∑ k, x[r, k] · wᵀ[k, j]` with `wᵀ[k, j] = w[j, k]`, the broadcast bias is `b[j]`.
-/
import proofs.«124846_j54219667144895_2_alg».proof.Proof.Gen.ReferenceIdeal.Read
import proofs.«124846_j54219667144895_2_alg».proof.Proof.Spec

noncomputable section

namespace Cert.ReferenceIdeal.RefValue

open Cert.ReferenceIdeal Cert.ReferenceIdeal.Gen Cert.ReferenceIdeal.Read Idealize.ShloMosaic
open Idealize.ShloMosaic.ValueIdx

/-- The left factor of the product at `(r, j)`, term `k`, is read at `(r, k)`. -/
theorem lidx_eq (i : S4194304x5.Idx) (k : Fin 5) : lidx_main_v1 i k = ix2 (i 0) k :=
  funext fun a => Fin.ext (by match a with | ⟨0, _⟩ => rfl | ⟨1, _⟩ => rfl)

/-- The right factor, the transposed weight at `(k, j)`, is the weight at `(j, k)`. -/
theorem ridx_eq (i : S4194304x5.Idx) (k : Fin 5) : idx_main_v0 (ridx_main_v1 i k) = ix2 (i 1) k :=
  funext fun a => Fin.ext (by match a with | ⟨0, _⟩ => rfl | ⟨1, _⟩ => rfl)

/-- The bias broadcast to every row is read at the column. -/
theorem bidx_eq (i : S4194304x5.Idx) : idx_main_v2 (idx_main_v3 i) = ix1 (i 1) :=
  funext fun a => Fin.ext (by match a with | ⟨0, _⟩ => rfl)

/-- The reference's result is `Spec.G` of its arguments. -/
theorem ref_eq (x : FVec Ideal S4194304x5 .f32) (w : FVec Ideal S5x5 .f32) (b : FVec Ideal S5 .f32) :
    val_main_v7 (F := Ideal) x w b = Cert.Spec.G x w b := by
  funext i
  rw [val_main_v7_apply, val_main_v5_apply, val_main_v4_apply, val_main_v1_apply, val_main_v3_apply, val_main_v2_apply,
    val_main_v6_apply, val_main_cst_apply]
  simp only [val_main_v0_apply, lidx_eq, ridx_eq, bidx_eq, Ideal.maximumf_def, Ideal.hostNegf_def, Ideal.negf_def,
    Ideal.addf_def, Ideal.ofBits_def]
  rfl

end Cert.ReferenceIdeal.RefValue

end
-- ==== Proof.FloorDiv.lean ====
/-
  Floor division by five on 32-bit words, as the host program spells it, and the comparison of two
  quotients.

  jnp's `//` on int32 is: the truncating quotient `d = x / 5`, lowered by one when the signs of `x` and
  `5` differ and the remainder is not zero. On the words `0 … 639` (row and column numbers of a
  640 × 640 matrix) nothing is negative, so the correction never fires and the result is the word of
  the natural-number quotient `k / 5`. Two such quotients are equal words exactly when they are equal
  numbers, both being far below 2³².
-/
import Idealize.ShloMosaic.PureOps

namespace Cert.FloorDiv

open Idealize.ShloMosaic

/-- The sign of a word, as `stablehlo.sign` computes it on integers: 0, −1 or 1. -/
def sgn (x : BitVec 32) : BitVec 32 := if x = 0 then 0 else if x.msb then -1 else 1

/-- jnp's `x // 5` on one int32 word. -/
def fd5 (x : BitVec 32) : BitVec 32 :=
  Scalar.select
    (IntOp.andi (IntOp.cmpi .ne (sgn x) (sgn 5#32)) (IntOp.cmpi .ne (IntOp.remsi .host x 5#32) 0#32))
    (IntOp.subi (IntOp.divsi .host x 5#32) 1#32)
    (IntOp.divsi .host x 5#32)

/-- On the words of `0 … 639` it is the natural-number quotient. -/
theorem fd5_ofNat : ∀ k : Fin 640, fd5 (BitVec.ofNat 32 k.val) = BitVec.ofNat 32 (k.val / 5) := by
  decide +kernel

/-- Words of numbers below 2³² are equal only when the numbers are. -/
theorem ofNat_inj {a b : Nat} (ha : a < 2 ^ 32) (hb : b < 2 ^ 32) (h : BitVec.ofNat 32 a = BitVec.ofNat 32 b) : a = b := by
  have h' := congrArg BitVec.toNat h
  rw [BitVec.toNat_ofNat, BitVec.toNat_ofNat, Nat.mod_eq_of_lt ha, Nat.mod_eq_of_lt hb] at h'
  exact h'

/-- Comparing the quotients of two row or column numbers: the bit is set exactly when the two numbers lie in the
    same group of five. -/
theorem cmp_fd5 (k q : Fin 640) :
    IntOp.cmpi .eq (fd5 (BitVec.ofNat 32 k.val)) (fd5 (BitVec.ofNat 32 q.val)) = if k.val / 5 = q.val / 5 then 1#1 else 0#1 := by
  rw [fd5_ofNat, fd5_ofNat]
  have hk := k.isLt
  have hq := q.isLt
  by_cases h : k.val / 5 = q.val / 5
  · rw [if_pos h, h]
    simp [IntOp.cmpi]
  · rw [if_neg h]
    have hne : BitVec.ofNat 32 (k.val / 5) ≠ BitVec.ofNat 32 (q.val / 5) := fun e =>
      h (ofNat_inj (by omega) (by omega) e)
    show BitVec.ofBool (BitVec.ofNat 32 (k.val / 5) == BitVec.ofNat 32 (q.val / 5)) = 0#1
    rw [beq_eq_false_iff_ne.mpr hne]
    rfl

end Cert.FloorDiv
-- ==== Proof.HostPrefix.lean ====
/-
  What the kernel call's three operands hold when the call starts, as functions of the program's arguments,
  and each of them read at an index.

  Before the call the host program builds:
  * the PACKED rows: the [4194304, 5] input reshaped to [32768, 640], so that packed row `R` holds the 128 input
    rows `128 R … 128 R + 127` one after the other, input row `r`, entry `j`, at position `5 (r mod 128) + j`;
  * the BLOCK-DIAGONAL weight [640, 640]: the transposed 5 × 5 weight tiled 128 × 128 times, then every entry
    whose row and column numbers are not in the same group of five replaced by zero — entry `(k, q)` is
    `W[q mod 5, k mod 5]` when `k / 5 = q / 5`, and `0` otherwise;
  * the WIDE bias [1, 640]: the bias tiled 128 times, entry `q` being `b[q mod 5]`.
  The "same group" test is an integer computation on row and column numbers (`FloorDiv`).
-/
import proofs.«124846_j54219667144895_2_alg».proof.Proof.Gen.KernelIdeal.Frame
import proofs.«124846_j54219667144895_2_alg».proof.Proof.FloorDiv
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem Idealize.ShloMosaic.StableHlo
open Idealize.ShloMosaic.ValueIdx Cert.FloorDiv

/-! ## The three operands as terms of the arguments -/

/-- The input, 128 rows to a packed row. -/
def packRows (x : FVec Ideal S4194304x5 .f32) : FVec Ideal S32768x640 .f32 :=
  shapeCast S32768x640 x shapeCasts_S4194304x5_S32768x640

/-- jnp's `a // 5` on a 640 × 640 matrix of int32, operation by operation. -/
def fdiv5 (a : IVec S640x640 32) : IVec S640x640 32 :=
  select
    (andi (cmpi .ne (signi a) (broadcastInDim S640x640 ![] bcast_S_S640x640 (signi (constantI S_ 32 5#32))))
      (cmpi .ne (Host.remsi a (broadcastInDim S640x640 ![] bcast_S_S640x640 (constantI S_ 32 5#32)))
        (broadcastInDim S640x640 ![] bcast_S_S640x640 (constantI S_ 32 0#32))))
    (subi (Host.divsi a (broadcastInDim S640x640 ![] bcast_S_S640x640 (constantI S_ 32 5#32)))
      (broadcastInDim S640x640 ![] bcast_S_S640x640 (constantI S_ 32 1#32)))
    (Host.divsi a (broadcastInDim S640x640 ![] bcast_S_S640x640 (constantI S_ 32 5#32)))

/-- The block-diagonal weight: the tiled transposed weight where row and column are in the same group of five,
    zero elsewhere. -/
def blockDiag (w : FVec Ideal S5x5 .f32) : FVec Ideal S640x640 .f32 :=
  select (cmpi .eq (fdiv5 (iotaInDim S640x640 32 0)) (fdiv5 (iotaInDim S640x640 32 1)))
    (shapeCast S640x640
      (broadcastInDim S128x5x128x5 ![0, 1, 2, 3] bcast_S1x5x1x5_S128x5x128x5_0_1_2_3
        (shapeCast S1x5x1x5 (transpose S5x5 [1, 0] w transposes_S5x5_S5x5_1_0) shapeCasts_S5x5_S1x5x1x5))
      shapeCasts_S128x5x128x5_S640x640)
    (broadcastInDim S640x640 ![] bcast_S_S640x640 (constant S_ .f32 0x00000000#32))

/-- The bias tiled 128 times, as one row. -/
def wideBias (b : FVec Ideal S5 .f32) : FVec Ideal S1x640 .f32 :=
  shapeCast S1x640
    (shapeCast S640 (broadcastInDim S128x5 ![0, 1] bcast_S1x5_S128x5_0_1 (shapeCast S1x5 b shapeCasts_S5_S1x5)) shapeCasts_S128x5_S640)
    shapeCasts_S640_S1x640

variable (m : (ℓ : Loc nD τ sig) → Buf (Elt Ideal) ℓ)

/-- The first operand of the call is the packed input. -/
theorem V_main_v0 (c : Dev nD) :
    (V m c main_v0 : S32768x640.Idx → EReal) = packRows (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The third operand of the call is the wide bias. -/
theorem V_main_v15 (c : Dev nD) :
    (V m c main_v15 : S1x640.Idx → EReal) = wideBias (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 2000000 in
/-- The second operand of the call is the block-diagonal weight. -/
theorem V_main_v11 (c : Dev nD) :
    (V m c main_v11 : S640x640.Idx → EReal) = blockDiag (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-! ## The operands read at an index -/

/-- Position `k` of packed row `R` is entry `j` of input row `r` when the two have the same place in row-major
    order. -/
theorem packRows_apply (x : FVec Ideal S4194304x5 .f32) (R : Fin 32768) (k : Fin 640) (r : Fin 4194304) (j : Fin 5)
    (h : r.val * 5 + j.val = R.val * 640 + k.val) : packRows x (ix2 R k) = x (ix2 r j) := by
  unfold packRows
  refine shapeCast_apply x shapeCasts_S4194304x5_S32768x640 (ix2 R k) (ix2 r j) ?_
  rw [Shape.rowMajor_val_two, Shape.rowMajor_val_two]
  exact h

/-- Entry `q` of the wide bias is entry `q mod 5` of the bias. -/
theorem wideBias_apply (b : FVec Ideal S5 .f32) (q : Fin 640) :
    wideBias b (ix2 (0 : Fin 1) q) = b (ix1 (⟨q.val % 5, Nat.mod_lt _ (by decide)⟩ : Fin 5)) := by
  have hq := q.isLt
  unfold wideBias
  refine (shapeCast_apply _ shapeCasts_S640_S1x640 (ix2 (0 : Fin 1) q) (ix1 q) ?_).trans ?_
  · rw [Shape.rowMajor_val_one, Shape.rowMajor_val_two]
    show q.val = 0 * 640 + q.val
    omega
  refine (shapeCast_apply _ shapeCasts_S128x5_S640 (ix1 q)
    (ix2 (⟨q.val / 5, by omega⟩ : Fin 128) (⟨q.val % 5, Nat.mod_lt _ (by decide)⟩ : Fin 5)) ?_).trans ?_
  · rw [Shape.rowMajor_val_two, Shape.rowMajor_val_one]
    show q.val / 5 * 5 + q.val % 5 = q.val
    omega
  refine (broadcastInDim_apply _ bcast_S1x5_S128x5_0_1 _ _
    (ix2 (0 : Fin 1) (⟨q.val % 5, Nat.mod_lt _ (by decide)⟩ : Fin 5)) (fun a => ?_)).trans ?_
  · match a with
    | ⟨0, _⟩ => show 0 = if (1 : Nat) = 1 then 0 else q.val / 5; rw [if_pos rfl]
    | ⟨1, _⟩ => show q.val % 5 = if (5 : Nat) = 1 then 0 else q.val % 5; rw [if_neg (by decide)]
  refine shapeCast_apply _ shapeCasts_S5_S1x5 _ (ix1 (⟨q.val % 5, Nat.mod_lt _ (by decide)⟩ : Fin 5)) ?_
  rw [Shape.rowMajor_val_one, Shape.rowMajor_val_two]
  show q.val % 5 = 0 * 5 + q.val % 5
  omega

/-- The floor division acts entry by entry. -/
theorem fdiv5_apply (a : IVec S640x640 32) (i : S640x640.Idx) : fdiv5 a i = fd5 (a i) := rfl

/-- The tiled transposed weight at row `k`, column `q`: the weight at `(q mod 5, k mod 5)`. -/
theorem tiled_apply (w : FVec Ideal S5x5 .f32) (k q : Fin 640) :
    shapeCast S640x640
      (broadcastInDim S128x5x128x5 ![0, 1, 2, 3] bcast_S1x5x1x5_S128x5x128x5_0_1_2_3
        (shapeCast S1x5x1x5 (transpose S5x5 [1, 0] w transposes_S5x5_S5x5_1_0) shapeCasts_S5x5_S1x5x1x5))
      shapeCasts_S128x5x128x5_S640x640 (ix2 k q)
    = w (ix2 (⟨q.val % 5, Nat.mod_lt _ (by decide)⟩ : Fin 5) (⟨k.val % 5, Nat.mod_lt _ (by decide)⟩ : Fin 5)) := by
  have hk := k.isLt
  have hq := q.isLt
  refine (shapeCast_apply _ shapeCasts_S128x5x128x5_S640x640 (ix2 k q)
    (ix4 (⟨k.val / 5, by omega⟩ : Fin 128) (⟨k.val % 5, Nat.mod_lt _ (by decide)⟩ : Fin 5)
      (⟨q.val / 5, by omega⟩ : Fin 128) (⟨q.val % 5, Nat.mod_lt _ (by decide)⟩ : Fin 5)) ?_).trans ?_
  · rw [Shape.rowMajor_val_four, Shape.rowMajor_val_two]
    show ((k.val / 5 * 5 + k.val % 5) * 128 + q.val / 5) * 5 + q.val % 5 = k.val * 640 + q.val
    omega
  refine (broadcastInDim_apply _ bcast_S1x5x1x5_S128x5x128x5_0_1_2_3 _ _
    (ix4 (0 : Fin 1) (⟨k.val % 5, Nat.mod_lt _ (by decide)⟩ : Fin 5) (0 : Fin 1) (⟨q.val % 5, Nat.mod_lt _ (by decide)⟩ : Fin 5))
    (fun a => ?_)).trans ?_
  · match a with
    | ⟨0, _⟩ => show 0 = if (1 : Nat) = 1 then 0 else k.val / 5; rw [if_pos rfl]
    | ⟨1, _⟩ => show k.val % 5 = if (5 : Nat) = 1 then 0 else k.val % 5; rw [if_neg (by decide)]
    | ⟨2, _⟩ => show 0 = if (1 : Nat) = 1 then 0 else q.val / 5; rw [if_pos rfl]
    | ⟨3, _⟩ => show q.val % 5 = if (5 : Nat) = 1 then 0 else q.val % 5; rw [if_neg (by decide)]
  refine (shapeCast_apply _ shapeCasts_S5x5_S1x5x1x5 _
    (ix2 (⟨k.val % 5, Nat.mod_lt _ (by decide)⟩ : Fin 5) (⟨q.val % 5, Nat.mod_lt _ (by decide)⟩ : Fin 5)) ?_).trans ?_
  · rw [Shape.rowMajor_val_two, Shape.rowMajor_val_four]
    show k.val % 5 * 5 + q.val % 5 = ((0 * 5 + k.val % 5) * 1 + 0) * 5 + q.val % 5
    omega
  exact transpose_apply [1, 0] w transposes_S5x5_S5x5_1_0 _
    (ix2 (⟨q.val % 5, Nat.mod_lt _ (by decide)⟩ : Fin 5) (⟨k.val % 5, Nat.mod_lt _ (by decide)⟩ : Fin 5))
    (fun b => match b with
      | ⟨0, _⟩ => rfl
      | ⟨1, _⟩ => rfl)

/-- Entry `(k, q)` of the block-diagonal weight: the weight at `(q mod 5, k mod 5)` when `k` and `q` are in the same
    group of five, zero otherwise. -/
theorem blockDiag_apply (w : FVec Ideal S5x5 .f32) (k q : Fin 640) :
    blockDiag w (ix2 k q)
      = if k.val / 5 = q.val / 5 then
          w (ix2 (⟨q.val % 5, Nat.mod_lt _ (by decide)⟩ : Fin 5) (⟨k.val % 5, Nat.mod_lt _ (by decide)⟩ : Fin 5))
        else 0 := by
  have hmask : cmpi .eq (fdiv5 (iotaInDim S640x640 32 0)) (fdiv5 (iotaInDim S640x640 32 1)) (ix2 k q)
      = if k.val / 5 = q.val / 5 then 1#1 else 0#1 := cmp_fd5 k q
  unfold blockDiag
  rw [select_apply, hmask]
  by_cases h : k.val / 5 = q.val / 5
  · rw [if_pos h, if_pos h, select_one]
    exact tiled_apply w k q
  · rw [if_neg h, if_neg h, select_zero]
    exact Ideal.ofBits_zero_f32

end Cert.KernelIdeal.HostPrefix

end
-- ==== Proof.Payload.lean ====
/-
  The kernel body's arithmetic at one entry.

  At a grid point the body loads a [1024, 640] block of packed rows `X`, the whole [640, 640] weight `M` and the
  [1, 640] bias row `B`, and stores `max (0 − (X · M + B), −1000)`. Over the extended reals the matrix product into
  a zero accumulator is the plain sum of the 640 products, the bias row is read at the column, and the format
  casts are the identity: entry `(p, q)` of what is stored is
  `max (0 − (∑ k, X[p, k] · M[k, q] + B[0, q]), −1000)`.
-/
import proofs.«124846_j54219667144895_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic
open Idealize.ShloMosaic.ValueIdx

/-- The left operand's index at output `j`, contraction `k`: row `j 0`, -/
theorem lhs_0 (j : S1024x640.Idx) (k : dot_S1024x640_S640x640_S1024x640_1_0_0_1_n_n.contr.Idx) : (dot_S1024x640_S640x640_S1024x640_1_0_0_1_n_n.lhsIdx j k 0).val = (j 0).val := by
  unfold DotDims.lhsIdx
  rw [dif_neg (show ¬(0 : Fin S1024x640.rank) ∈ dot_S1024x640_S640x640_S1024x640_1_0_0_1_n_n.lhsBatch by decide),
    dif_pos (show (0 : Fin S1024x640.rank) ∈ dot_S1024x640_S640x640_S1024x640_1_0_0_1_n_n.lhsNonContracting by decide)]
  rfl
/-- column `k`. -/
theorem lhs_1 (j : S1024x640.Idx) (k : dot_S1024x640_S640x640_S1024x640_1_0_0_1_n_n.contr.Idx) : (dot_S1024x640_S640x640_S1024x640_1_0_0_1_n_n.lhsIdx j k 1).val = (k ⟨0, by decide⟩).val :=
  dot_S1024x640_S640x640_S1024x640_1_0_0_1_n_n.lhsIdx_val_of_single rfl j k
/-- The right operand's index: row `k`, -/
theorem rhs_0 (j : S1024x640.Idx) (k : dot_S1024x640_S640x640_S1024x640_1_0_0_1_n_n.contr.Idx) : (dot_S1024x640_S640x640_S1024x640_1_0_0_1_n_n.rhsIdx j k 0).val = (k ⟨0, by decide⟩).val :=
  dot_S1024x640_S640x640_S1024x640_1_0_0_1_n_n.rhsIdx_val_of_single rfl j k
/-- column `j 1`. -/
theorem rhs_1 (j : S1024x640.Idx) (k : dot_S1024x640_S640x640_S1024x640_1_0_0_1_n_n.contr.Idx) : (dot_S1024x640_S640x640_S1024x640_1_0_0_1_n_n.rhsIdx j k 1).val = (j 1).val := by
  unfold DotDims.rhsIdx
  rw [dif_neg (show ¬(1 : Fin S640x640.rank) ∈ dot_S1024x640_S640x640_S1024x640_1_0_0_1_n_n.rhsBatch by decide),
    dif_pos (show (1 : Fin S640x640.rank) ∈ dot_S1024x640_S640x640_S1024x640_1_0_0_1_n_n.rhsNonContracting by decide)]
  rfl

/-- The matrix product of the body, into the zero accumulator, at `(p, q)`: the sum over the 640 positions of the
    row of `X` times the column of `M`. -/
theorem matmul_apply (X : FVec Ideal S1024x640 .f32) (M : FVec Ideal S640x640 .f32) (p : Fin 1024) (q : Fin 640) :
    matmul dot_S1024x640_S640x640_S1024x640_1_0_0_1_n_n none X M (constant S1024x640 .f32 0x00000000#32) (ix2 p q)
      = ∑ k : Fin 640, X (ix2 p k) * M (ix2 k q) := by
  simp only [matmul]
  rw [Ideal.matmul_constant_zero_apply, ← Equiv.sum_comp (contrEquiv1 dot_S1024x640_S640x640_S1024x640_1_0_0_1_n_n 640 rfl rfl).symm]
  refine Finset.sum_congr rfl fun k _ => ?_
  have hk := contrEquiv1_symm_val dot_S1024x640_S640x640_S1024x640_1_0_0_1_n_n 640 rfl rfl k
  have el : dot_S1024x640_S640x640_S1024x640_1_0_0_1_n_n.lhsIdx (ix2 p q) ((contrEquiv1 dot_S1024x640_S640x640_S1024x640_1_0_0_1_n_n 640 rfl rfl).symm k) = ix2 p k :=
    funext fun a => Fin.ext (by
      match a with
      | ⟨0, _⟩ => exact lhs_0 _ _
      | ⟨1, _⟩ => exact (lhs_1 _ _).trans hk)
  have er : dot_S1024x640_S640x640_S1024x640_1_0_0_1_n_n.rhsIdx (ix2 p q) ((contrEquiv1 dot_S1024x640_S640x640_S1024x640_1_0_0_1_n_n 640 rfl rfl).symm k) = ix2 k q :=
    funext fun a => Fin.ext (by
      match a with
      | ⟨0, _⟩ => exact (rhs_0 _ _).trans hk
      | ⟨1, _⟩ => exact rhs_1 _ _)
  rw [el, er]

/-- What the body stores, at `(p, q)`. -/
theorem pay_apply (X : Vec Ideal S1024x640 .f32) (M : Vec Ideal S640x640 .f32) (B : Vec Ideal S1x640 .f32)
    (p : Fin 1024) (q : Fin 640) :
    k0_pay1 (F := Ideal) X M B (ix2 p q)
      = max (0 - ((∑ k : Fin 640, X (ix2 p k) * M (ix2 k q)) + B (ix2 (0 : Fin 1) q))) (Ideal.ofBits .f32 0xC47A0000#32) := by
  unfold k0_pay1
  show max (Ideal.ofBits .f32 0x00000000#32
      - (matmul dot_S1024x640_S640x640_S1024x640_1_0_0_1_n_n none (shapeCast S1024x640 X shapeCasts_S1024x640_S1024x640)
            (shapeCast S640x640 M shapeCasts_S640x640_S640x640) (constant S1024x640 .f32 0x00000000#32) (ix2 p q)
          + broadcastTo S1024x640 (shapeCast S1x640 B shapeCasts_S1x640_S1x640) broadcasts_S1x640_S1024x640 (ix2 p q)))
      (Ideal.ofBits .f32 0xC47A0000#32) = _
  rw [shapeCast_self, shapeCast_self, shapeCast_self, matmul_apply, broadcastTo_1b_ab_apply, Ideal.ofBits_zero_f32]

end Cert.KernelIdeal.Payload

end
-- ==== Proof.Blocks.lean ====
/-
  From what each grid point writes back to the whole result array of the call.

  The call runs the body on 32 blocks of 1024 packed rows. Point `t` reads rows `1024 t … 1024 t + 1023` of the
  packed input, the whole block-diagonal weight and the whole bias row, and writes rows `1024 t … 1024 t + 1023` of
  the result. So every point writes a block of ONE function of the three operand arrays,
      `out X M B (R, q) = max (0 − (∑ k, X[R, k] · M[k, q] + B[0, q]), −1000)`,
  and since the 32 blocks cover the [32768, 640] result, the result array after the call is that function.
-/
import proofs.«124846_j54219667144895_2_alg».proof.Proof.Gen.KernelIdeal.Frame
import proofs.«124846_j54219667144895_2_alg».proof.Proof.Payload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem hz : (![0, 0] : Fin 2 → Nat) = fun _ => 0 := funext fun a => by fin_cases a <;> rfl

/-- The call's result as one function of its three operand arrays. -/
def out (X : S32768x640.Idx → EReal) (M : S640x640.Idx → EReal) (B : S1x640.Idx → EReal) : S32768x640.Idx → EReal :=
  fun i => max (0 - ((∑ k : Fin 640, X (ix2 (i 0) k) * M (ix2 k (i 1))) + B (ix2 (0 : Fin 1) (i 1))))
    (Ideal.ofBits .f32 0xC47A0000#32)

/-- Which block each window is on at point `t`: the packed input and the result move down one block of rows per
    point, the weight and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 :=
  lt_of_lt_of_eq t.isLt (N_0 : cfg0.N = 32)

/-- The packed-input block at point `t`: rows `1024 t + p` of the packed input. -/
theorem iblk0_apply (c : Dev nD) (t : Fin cfg0.N) (p : Fin 1024) (k : Fin 640) :
    (iblk m c 0 t : S1024x640.Idx → EReal) (ix2 p k)
      = (V m c main_v0 : S32768x640.Idx → EReal)
          (ix2 (⟨t.val * 1024 + p.val, by have := point_lt t; have := p.isLt; omega⟩ : Fin 32768) k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 640 + 1 * k.val = k.val; rw [e1]; omega

/-- The weight block at every point is the whole weight. -/
theorem iblk1_apply (c : Dev nD) (t : Fin cfg0.N) (k q : Fin 640) :
    (iblk m c 1 t : S640x640.Idx → EReal) (ix2 k q) = (V m c main_v11 : S640x640.Idx → EReal) (ix2 k q) := by
  obtain ⟨-, -, e2, e3, -⟩ := idx_facts t
  unfold iblk
  rw [View.read_apply]
  show V m c main_v11 _ = V m c main_v11 _
  congr 1
  funext a
  apply Fin.ext
  match a with
  | ⟨0, _⟩ => show win0_1.index t (0 : Fin 2) * 640 + 1 * k.val = k.val; rw [e2]; omega
  | ⟨1, _⟩ => show win0_1.index t (1 : Fin 2) * 640 + 1 * q.val = q.val; rw [e3]; omega

/-- The bias block at every point is the whole bias row. -/
theorem iblk2_apply (c : Dev nD) (t : Fin cfg0.N) (q : Fin 640) :
    (iblk m c 2 t : S1x640.Idx → EReal) (ix2 (0 : Fin 1) q) = (V m c main_v15 : S1x640.Idx → EReal) (ix2 (0 : Fin 1) q) := by
  obtain ⟨-, -, -, -, e4, e5, -⟩ := idx_facts t
  unfold iblk
  rw [View.read_apply]
  show V m c main_v15 _ = V m c main_v15 _
  congr 1
  funext a
  apply Fin.ext
  match a with
  | ⟨0, _⟩ => show win0_2.index t (0 : Fin 2) * 1 + 1 * 0 = 0; rw [e4]
  | ⟨1, _⟩ => show win0_2.index t (1 : Fin 2) * 640 + 1 * q.val = q.val; rw [e5]; omega

/-- WHAT POINT `t` WRITES BACK is block `t` of `out` of the operand arrays as the call finds them. -/
theorem flushed_eq (c : Dev nD) (t : Fin cfg0.N) :
    (dats m 0 c).flushed 3 t
      = ((cfg0.win 3).blk t).view.read (Elt Ideal) (out (V m c main_v0) (V m c main_v11) (V m c main_v15)) := by
  show (cfg0.win 3).cut (grid0.coords t) ((dats m 0 c).after 3 t) = _
  rw [after0_3]
  unfold out0_3
  rw [View.canon_unit_zero hz]
  simp only [View.ld_unit_zero (S := S1024x640) hz, View.ld_unit_zero (S := S640x640) hz, View.ld_unit_zero (S := S1x640) hz]
  obtain ⟨-, -, -, -, -, -, e6, e7⟩ := idx_facts t
  funext j
  obtain ⟨p, q, rfl⟩ : ∃ (p : Fin 1024) (q : Fin 640), j = ix2 p q := ⟨j 0, j 1, eq_ix2 j⟩
  have hemb : ((cfg0.win 3).blk t).view.emb (ix2 p q)
      = ix2 (⟨t.val * 1024 + p.val, by have := point_lt t; have := p.isLt; omega⟩ : Fin 32768) q := by
    funext a
    apply Fin.ext
    match a with
    | ⟨0, _⟩ => show win0_3.index t (0 : Fin 2) * 1024 + 1 * p.val = t.val * 1024 + p.val; rw [e6]; omega
    | ⟨1, _⟩ => show win0_3.index t (1 : Fin 2) * 640 + 1 * q.val = q.val; rw [e7]; omega
  show k0_pay1 (iblk m c 0 t) (iblk m c 1 t) (iblk m c 2 t) (ix2 p q)
    = out (V m c main_v0) (V m c main_v11) (V m c main_v15) (((cfg0.win 3).blk t).view.emb (ix2 p q))
  rw [hemb]
  refine (Payload.pay_apply (iblk m c 0 t) (iblk m c 1 t) (iblk m c 2 t) p q).trans ?_
  unfold out
  simp only [iblk0_apply, iblk1_apply, iblk2_apply]

/-- An index of the result array is in point `t`'s block iff each coordinate is in the block's range on its axis. -/
theorem mem_blk (t : Fin cfg0.N) (i : S32768x640.Idx) :
    i ∈ ((cfg0.win 3).blk t).view.set
      ↔ ∀ a : Fin 2, win0_3.index t a * S1024x640.size a ≤ (i a).val
          ∧ (i a).val < win0_3.index t a * S1024x640.size a + S1024x640.size a := by
  show i ∈ ((View.whole main_v16).slice (win0_3.rect t)).set ↔ _
  rw [View.set_slice_whole, Rect.mem_set_unit]
  exact Iff.rfl

/-- Every index of the result array is in the block of the point its row falls to. -/
theorem cover (i : S32768x640.Idx) :
    ∃ t : Fin cfg0.N, (cfg0.win 3).flush t = true ∧ i ∈ ((cfg0.win 3).blk t).view.set := by
  have hi0 : (i 0).val < 32768 := (i 0).isLt
  have hi1 : (i 1).val < 640 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]
    omega
  | ⟨1, _⟩ =>
    show win0_3.index t (1 : Fin 2) * 640 ≤ (i 1).val ∧ (i 1).val < win0_3.index t (1 : Fin 2) * 640 + 640
    rw [e7]
    omega

/-- THE RESULT ARRAY after the call is `out` of the operand arrays. -/
theorem final (c : Dev nD) :
    (dats m 0 c).arrAt 3 cfg0.N = out (V m c main_v0) (V m c main_v11) (V m c main_v15) :=
  (dats m 0 c).arrAt_eq_of_cover 3 (out (V m c main_v0) (V m c main_v11) (V m c main_v15))
    (fun t _ => flushed_eq m c t) cover

end Cert.KernelIdeal.Blocks

end
-- ==== Proof.BlockSum.lean ====
/-
  A sum over the 640 positions of a packed row whose summand vanishes outside ONE group of five
  consecutive positions is the sum over that group.

  A packed row holds 128 groups of five entries: position `5 a + b` is entry `b` of group `a`.
  A block-diagonal matrix with 128 copies of a 5 × 5 block on its diagonal has, in column `5 s + j`,
  nonzero entries only in the rows of group `s`; so a row times that column, a sum of 640 products,
  keeps five of them. Stated over any commutative additive monoid: the extended reals are one, and
  nothing here needs a summand to be finite.
-/
import Mathlib.Algebra.BigOperators.Fin
import Mathlib.Data.Fintype.BigOperators

namespace Cert.BlockSum

/-- Position `5 a + b` of a packed row: entry `b` of group `a`. -/
def pos (a : Fin 128) (b : Fin 5) : Fin 640 := ⟨5 * a.val + b.val, by have := a.isLt; have := b.isLt; omega⟩

@[simp] theorem pos_val (a : Fin 128) (b : Fin 5) : (pos a b).val = 5 * a.val + b.val := rfl

/-- A position is a group and an entry within it: quotient and remainder by five. -/
def split : Fin 128 × Fin 5 ≃ Fin 640 where
  toFun p := pos p.1 p.2
  invFun k := (⟨k.val / 5, by have := k.isLt; omega⟩, ⟨k.val % 5, Nat.mod_lt _ (by decide)⟩)
  left_inv p := by
    rcases p with ⟨a, b⟩
    have ha := a.isLt
    have hb := b.isLt
    refine Prod.ext (Fin.ext ?_) (Fin.ext ?_)
    · show (5 * a.val + b.val) / 5 = a.val
      omega
    · show (5 * a.val + b.val) % 5 = b.val
      omega
  right_inv k := by
    refine Fin.ext ?_
    show 5 * (k.val / 5) + k.val % 5 = k.val
    omega

/-- A summand that vanishes outside group `s` sums to its five values on group `s`. -/
theorem sum_eq_sum_group {M : Type*} [AddCommMonoid M] (g : Fin 640 → M) (s : Fin 128)
    (hg : ∀ k : Fin 640, k.val / 5 ≠ s.val → g k = 0) :
    ∑ k : Fin 640, g k = ∑ b : Fin 5, g (pos s b) := by
  rw [← split.sum_comp g, Fintype.sum_prod_type, Finset.sum_eq_single s]
  · rfl
  · intro a _ ha
    refine Finset.sum_eq_zero fun b _ => hg _ ?_
    intro h
    apply ha
    have hb := b.isLt
    have h' : (5 * a.val + b.val) / 5 = s.val := h
    exact Fin.ext (by omega)
  · intro h
    exact absurd (Finset.mem_univ s) h

end Cert.BlockSum
-- ==== Proof.KernelAlgebra.lean ====
/-
  The packed computation, unpacked, is `Spec.G`.

  The call's result is a [32768, 640] array; the program reshapes it back to [4194304, 5]. Entry `(r, j)` of the
  final result is entry `(R, c)` of the call's result with `R = r / 128` and `c = 5 (r mod 128) + j` (same place in
  row-major order). There the call computed `max (0 − (∑ k<640, X[R, k] · M[k, c] + B[0, c]), −1000)`, where
  * `M[k, c]` is zero unless `k` lies in group `c / 5 = r mod 128`, so only the five terms `k = 5 (r mod 128) + k'`
    remain (`BlockSum`), and there `M[k, c] = w[c mod 5, k mod 5] = w[j, k']`;
  * `X[R, 5 (r mod 128) + k']` is `x[r, k']`: the packed row `R` holds input rows `128 R …`, row `r` at offset
    `5 (r mod 128)`;
  * `B[0, c] = b[c mod 5] = b[j]`.
  A product with the zero entries of `M` is zero whatever the other factor, and `0 − y = −y`, so nothing here asks
  an input to be finite.
-/
import proofs.«124846_j54219667144895_2_alg».proof.Proof.HostPrefix
import proofs.«124846_j54219667144895_2_alg».proof.Proof.Blocks
import proofs.«124846_j54219667144895_2_alg».proof.Proof.BlockSum
import proofs.«124846_j54219667144895_2_alg».proof.Proof.Spec

noncomputable section

namespace Cert.KernelIdeal.Algebra

open Cert.KernelIdeal Cert.KernelIdeal.Gen Idealize.ShloMosaic
open Idealize.ShloMosaic.ValueIdx Cert.KernelIdeal.HostPrefix Cert.BlockSum

/-- The 640 products of a packed row with a column of the block-diagonal weight keep the five of the column's group:
    with `R = r / 128` and column `5 (r mod 128) + j`, the sum is `∑ k<5, x[r, k] · w[j, k]`. -/
theorem packed_dot (x : FVec Ideal S4194304x5 .f32) (w : FVec Ideal S5x5 .f32) (r : Fin 4194304) (j : Fin 5)
    (R : Fin 32768) (c : Fin 640) (hR : R.val = r.val / 128) (hc : c.val = 5 * (r.val % 128) + j.val) :
    ∑ k : Fin 640, packRows x (ix2 R k) * blockDiag w (ix2 k c) = ∑ k : Fin 5, x (ix2 r k) * w (ix2 j k) := by
  have hr := r.isLt
  have hj := j.isLt
  obtain ⟨s, hs⟩ : ∃ s : Fin 128, s.val = r.val % 128 := ⟨⟨r.val % 128, Nat.mod_lt _ (by decide)⟩, rfl⟩
  rw [sum_eq_sum_group (fun k => packRows x (ix2 R k) * blockDiag w (ix2 k c)) s]
  · refine Finset.sum_congr rfl fun k _ => ?_
    have hk := k.isLt
    have hgroup : (pos s k).val / 5 = c.val / 5 := by rw [pos_val, hc, hs]; omega
    rw [packRows_apply x R (pos s k) r k (by rw [pos_val, hR, hs]; omega), blockDiag_apply, if_pos hgroup]
    congr 2
    funext a
    match a with
    | ⟨0, _⟩ => exact Fin.ext (by show c.val % 5 = j.val; rw [hc]; omega)
    | ⟨1, _⟩ => exact Fin.ext (by show (pos s k).val % 5 = k.val; rw [pos_val]; omega)
  · intro k hk
    have hne : ¬ k.val / 5 = c.val / 5 := by rw [hc]; intro h; apply hk; rw [hs]; omega
    show packRows x (ix2 R k) * blockDiag w (ix2 k c) = 0
    rw [blockDiag_apply, if_neg hne, mul_zero]

/-- The reshaped result of the call, on the operands the host prefix builds, is `Spec.G` of the arguments. -/
theorem unpacked_eq (x : FVec Ideal S4194304x5 .f32) (w : FVec Ideal S5x5 .f32) (b : FVec Ideal S5 .f32) :
    shapeCast S4194304x5 (Blocks.out (packRows x) (blockDiag w) (wideBias b)) shapeCasts_S32768x640_S4194304x5
      = Cert.Spec.G x w b := by
  funext i
  obtain ⟨r, j, rfl⟩ : ∃ (r : Fin 4194304) (j : Fin 5), i = ix2 r j := ⟨i 0, i 1, eq_ix2 i⟩
  have hr := r.isLt
  have hj := j.isLt
  obtain ⟨R, hR⟩ : ∃ R : Fin 32768, R.val = r.val / 128 := ⟨⟨r.val / 128, by omega⟩, rfl⟩
  obtain ⟨c, hc⟩ : ∃ c : Fin 640, c.val = 5 * (r.val % 128) + j.val := ⟨⟨5 * (r.val % 128) + j.val, by omega⟩, rfl⟩
  refine (shapeCast_apply _ shapeCasts_S32768x640_S4194304x5 (ix2 r j) (ix2 R c) ?_).trans ?_
  · rw [Shape.rowMajor_val_two, Shape.rowMajor_val_two]
    show R.val * 640 + c.val = r.val * 5 + j.val
    rw [hR, hc]
    omega
  show max (0 - ((∑ k : Fin 640, packRows x (ix2 R k) * blockDiag w (ix2 k c)) + wideBias b (ix2 (0 : Fin 1) c)))
      (Ideal.ofBits .f32 0xC47A0000#32)
    = max (-((∑ k : Fin 5, x (ix2 r k) * w (ix2 j k)) + b (ix1 j))) (Ideal.ofBits .f32 0xC47A0000#32)
  have hb : wideBias b (ix2 (0 : Fin 1) c) = b (ix1 j) := by
    rw [wideBias_apply]
    congr 1
    funext a
    match a with
    | ⟨0, _⟩ => exact Fin.ext (by show c.val % 5 = j.val; rw [hc]; omega)
  rw [packed_dot x w r j R c hR hc, hb, sub_eq_add_neg, zero_add]

end Cert.KernelIdeal.Algebra

end
-- ==== Proof.KernelRun.lean ====
/-
  The idealized kernel program's run, with its result named: every execution ends with the result buffer at
  `Spec.G` of the argument arrays, and the arguments unchanged.

  The program is: the host prefix (`HostPrefix`: the three operands of the call), the call (`Blocks`: its result
  array is `Blocks.out` of the operands), and one reshape of the call's result back to [4194304, 5]. The frame run
  states the final contents of the result buffer as that last reshape applied to the call's result array;
  `Algebra.unpacked_eq` identifies the whole composition with `Spec.G`.
-/
import proofs.«124846_j54219667144895_2_alg».proof.Proof.Gen.KernelIdeal.Frame
import proofs.«124846_j54219667144895_2_alg».proof.Proof.HostPrefix
import proofs.«124846_j54219667144895_2_alg».proof.Proof.Blocks
import proofs.«124846_j54219667144895_2_alg».proof.Proof.KernelAlgebra

noncomputable section

namespace Cert.KernelIdeal.Run

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- After the call, the program's result buffer holds the call's result array reshaped to [4194304, 5]. -/
theorem tail_eq (c : Dev nD) :
    (Pipeline.afterTail₀ cfgs (dats m) 0 (V0 m) [hostOps1] c main_v17 : S4194304x5.Idx → EReal)
      = shapeCast S4194304x5 ((dats m 0 c).arrAt 3 cfg0.N) shapeCasts_S32768x640_S4194304x5 := by
  unfold Pipeline.afterTail₀
  show StableHlo.after hostOps1 _ (Proc.devRef .tc main_v17) = _
  after_results
  rw [Pipeline.withArrays_arr spec0 launch0.win.arr_inj c _ _ 3]
  rfl

/-- So it holds `Spec.G` of the argument arrays. -/
theorem result_eq (c : Dev nD) :
    (Pipeline.afterTail₀ cfgs (dats m) 0 (V0 m) [hostOps1] c main_v17 : S4194304x5.Idx → EReal)
      = Cert.Spec.G (m ((c : Thread nD τ).loc main_arg0)) (m ((c : Thread nD τ).loc main_arg1)) (m ((c : Thread nD τ).loc main_arg2)) := by
  rw [tail_eq, Blocks.final, HostPrefix.V_main_v0, HostPrefix.V_main_v11, HostPrefix.V_main_v15]
  exact Algebra.unpacked_eq _ _ _

/-- The run: the result at `Spec.G` of the arguments, the arguments as launched. -/
theorem run : θ_run defs (onTc (τ := τ) (main (F := Ideal))) ⟨m, fun _ => 0, ρ⟩ fun r => ∀ c : Dev nD,
      r.2.mem ((c : Thread nD τ).loc main_v17)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.lean ====
/- The proof of `Cert.Claim`: the three frames, `preserves` and `algebraic`.

   Both idealized programs compute, entry `(r, j)` of the result,
       `max (−(∑ k, x[r, k] · w[j, k] + b[j]), −1000)`   (`Spec.G`)
   over the extended reals. The reference does so directly (`RefValue.ref_eq`). The kernel program packs 128 input
   rows into one row of 640 numbers, multiplies by a 640 × 640 block-diagonal matrix carrying 128 copies of the
   transposed weight, adds the bias tiled 128 times, takes `max (0 − ·, −1000)`, and unpacks (`KernelRun.run`): the
   off-diagonal blocks are zero, so each of the 640-term sums keeps the five terms of the reference's product.
   The ideal pass rewrote nothing, so `preserves` is `True`; the frames of the two kernel programs are the
   generated ones, and the reference's frame is its generated run with the result dropped. -/
import proofs.«124846_j54219667144895_2_alg».proof.Defs
import proofs.«124846_j54219667144895_2_alg».proof.Proof.Gen.Kernel
import proofs.«124846_j54219667144895_2_alg».proof.Proof.Gen.Kernel.Skeleton
import proofs.«124846_j54219667144895_2_alg».proof.Proof.Gen.Kernel.Launch
import proofs.«124846_j54219667144895_2_alg».proof.Proof.Gen.Kernel.Points
import proofs.«124846_j54219667144895_2_alg».proof.Proof.Gen.Kernel.Frame
import proofs.«124846_j54219667144895_2_alg».proof.Proof.Gen.KernelIdeal
import proofs.«124846_j54219667144895_2_alg».proof.Proof.Gen.KernelIdeal.Skeleton
import proofs.«124846_j54219667144895_2_alg».proof.Proof.Gen.KernelIdeal.Launch
import proofs.«124846_j54219667144895_2_alg».proof.Proof.Gen.KernelIdeal.Points
import proofs.«124846_j54219667144895_2_alg».proof.Proof.Gen.KernelIdeal.Frame
import proofs.«124846_j54219667144895_2_alg».proof.Proof.Gen.ReferenceIdeal
import proofs.«124846_j54219667144895_2_alg».proof.Proof.Gen.ReferenceIdeal.Run
import proofs.«124846_j54219667144895_2_alg».proof.Proof.Gen.ReferenceIdeal.Read
import proofs.«124846_j54219667144895_2_alg».proof.Proof.RefValue
import proofs.«124846_j54219667144895_2_alg».proof.Proof.KernelRun
import proofs.«124846_j54219667144895_2_alg».proof.Proof.Gen.Pre_finite_inputs
import Idealize.ShloMosaic.Adequacy
import Idealize.ShloMosaic.Init

noncomputable section

namespace Cert.Proof

open Idealize.ShloMosaic Idealize.SL.Sem Cert.Kernel

/-- At the ideal instance the kernel program's result is `Spec.G` of its arguments (`KernelRun.run`) and the
    reference's result is `Spec.G` of its own (`RefValue.ref_eq` over the generated run); the arguments agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
